-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg6 : FVec F S64 .f32) (main_arg7 : FVec F S64x32 .f32) (main_arg8 : FVec F S64x32 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_v33

def fn {F : FTy → Type} [FloatOps F] (main_arg0 : FVec F S50000x64 .f32) (main_arg1 : IVec S800000 32) (main_arg2 : IVec S800000 32) (main_arg3 : FVec F S800000 .f32) (main_arg4 : FVec F S64x64 .f32) (main_arg5 : FVec F S64x64 .f32) (main_arg6 : FVec F S64 .f32) (main_arg7 : FVec F S64x32 .f32) (main_arg8 : FVec F S64x32 .f32) (main_arg9 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S128x64 : Shape := ⟨2, ![128, 64]⟩
abbrev S1x64 : Shape := ⟨2, ![1, 64]⟩
abbrev S10000x64 : Shape := ⟨2, ![10000, 64]⟩
abbrev S10000x1 : Shape := ⟨2, ![10000, 1]⟩
abbrev S10000x128 : Shape := ⟨2, ![10000, 128]⟩
abbrev S128x32 : Shape := ⟨2, ![128, 32]⟩
abbrev S1x32 : Shape := ⟨2, ![1, 32]⟩
abbrev S50000x32 : Shape := ⟨2, ![50000, 32]⟩
abbrev S10000x32 : Shape := ⟨2, ![10000, 32]⟩

abbrev nBuf : Space → Nat
  | .hbm => 55
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S64x32, .f32⟩
  | .hbm, ⟨9, _⟩ => ⟨S32, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x1, .f32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S128x64, .f32⟩
  | .hbm, ⟨37, _⟩ => ⟨S1x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S128x32, .f32⟩
  | .hbm, ⟨53, _⟩ => ⟨S1x32, .f32⟩
  | .hbm, ⟨54, _⟩ => ⟨S50000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S128x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S128x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  concatenates_S64x64_S64x64_S128x64_d0 : Shape.Concatenates [S64x64, S64x64] S128x64 0
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  concatenates_S10000x64_S10000x64_S10000x128_d1 : Shape.Concatenates [S10000x64, S10000x64] S10000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  concatenates_S64x32_S64x32_S128x32_d0 : Shape.Concatenates [S64x32, S64x32] S128x32 0
  shapeCasts_S32_S1x32 : S32.ShapeCasts S1x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x128_S128x64_S10000x64_1_0_0_1_n_n_wf : DotDims.WF S10000x128 S128x64 S10000x64 [1] [0] [0] [1] [] []
  dot_S10000x128_S128x32_S10000x32_1_0_0_1_n_n_wf : DotDims.WF S10000x128 S128x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S50000x32.size a
  hwx1_5 : ∀ i : grid1.Coords, EltTy.bits .f32 = 32 ∨ (Rect.block (s := S50000x32) S10000x32.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S50000x32 : Shape := ⟨2, ![50000, 32]⟩
abbrev S1x32 : Shape := ⟨2, ![1, 32]⟩

abbrev nBuf : Space → Nat
  | .hbm => 69
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S64x32, .f32⟩
  | .hbm, ⟨9, _⟩ => ⟨S32, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x1, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x1, .f32⟩
  | .hbm, ⟨61, _⟩ => ⟨S50000x64, .f32⟩
  | .hbm, ⟨62, _⟩ => ⟨S50000x64, .f32⟩
  | .hbm, ⟨63, _⟩ => ⟨S50000x32, .f32⟩
  | .hbm, ⟨64, _⟩ => ⟨S50000x32, .f32⟩
  | .hbm, ⟨65, _⟩ => ⟨S50000x32, .f32⟩
  | .hbm, ⟨66, _⟩ => ⟨S1x32, .f32⟩
  | .hbm, ⟨67, _⟩ => ⟨S50000x32, .f32⟩
  | .hbm, ⟨68, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.RunOut.lean ====
/-
  The two-layer program's run with its result array named.

  The program is four segments: host operations, the first layer's row-tiled region, host operations, the second
  layer's row-tiled region. Every weakly fair execution ends with every unscoped buffer at the contents the fold
  through those four segments gives it; read at the result buffer, that is the second region's output array after
  its five write-backs, and read at an argument it is the argument as launched.
-/
import proofs.«118665_j73641509257822_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the ten arguments as launched. -/
theorem run_out : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Hand

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«118665_j73641509257822_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibConcatCols.lean ====
/-
  Two matrices laid side by side, read at an entry.

  The concatenation along the column axis of a `[K, C₁]` and a `[K, C₂]` array into `[K, D]` reads, at `(k, d)`,
  the first array at `(k, d)` when `d` is one of its columns, and the second at `(k, d − C₁)` otherwise. Stated with
  the column of the piece given and the column of the whole tied to it by an equation, so that both fit whatever way
  a program numbers its columns.
-/
import Idealize.ShloMosaic.Lib.Pipeline.Value
import Idealize.ShloMosaic.Lib.ValueIdx

namespace Cert.LibConcatCols

open Idealize.ShloMosaic Idealize.ShloMosaic.ValueIdx

variable {α : Type}

/-- Column `d` of the whole is column `c` of the LEFT piece (`d = c`): the whole at `(k, d)` is the left piece at
    `(k, c)`. -/
theorem concat_cols_left {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₁) (d : Fin D)
    (hd : d.val = c.val) :
    concatenate ⟨2, ![K, D]⟩ 1 [⟨⟨2, ![K, C₁]⟩, x₁⟩, ⟨⟨2, ![K, C₂]⟩, x₂⟩] h (ix2 k d) = x₁ (ix2 k c) :=
  concatenate_pair_apply_left 1 x₁ x₂ h (ix2 k d) rfl (ix2 k c) fun b =>
    match b with
    | ⟨0, _⟩ => rfl
    | ⟨1, _⟩ => hd.symm

/-- Column `d` of the whole is column `c` of the RIGHT piece (`d = C₁ + c`): the whole at `(k, d)` is the right piece
    at `(k, c)`. -/
theorem concat_cols_right {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₂) (d : Fin D)
    (hd : d.val = C₁ + c.val) :
    concatenate ⟨2, ![K, D]⟩ 1 [⟨⟨2, ![K, C₁]⟩, x₁⟩, ⟨⟨2, ![K, C₂]⟩, x₂⟩] h (ix2 k d) = x₂ (ix2 k c) :=
  concatenate_pair_apply_right 1 x₁ x₂ h (ix2 k d) rfl rfl (ix2 k c)
    (fun b hb =>
      match b, hb with
      | ⟨0, _⟩, _ => rfl
      | ⟨1, _⟩, hb => absurd rfl hb)
    (by show c.val + C₁ = d.val; omega)

end Cert.LibConcatCols
-- ==== Proof.LibSageLayer.lean ====
/-
  One mean-aggregation graph-convolution layer, read at an entry.

  The layer sends node features X [N, K], the summed neighbour messages S [N, K], the in-degrees d [N], two weight
  matrices Ws, Wn [K, C] and a bias b [C] to   X · Ws + (S / d) · Wn + b,   the quotient row by row. Its entry (P, q)
  depends on row P of X and of S, on d at P, on column q of the two weight matrices and on b at q:

      entry = (∑ k, X(P,k) · Ws(k,q)  +  ∑ k, (S(P,k) / d(P)) · Wn(k,q))  +  b(q).

  Two arrangements compute it. One lays X and S / d side by side into [N, K + K], stacks Ws on top of Wn into
  [K + K, C] and takes ONE product: its contraction runs over K + K terms, the first K of which are X's and the last K
  the quotient's, so it is the sum of the two shorter contractions (a finite sum over the extended reals splits at any
  point; no finiteness is needed). The other takes the two products apart and adds them. Both then add the bias.
  The first arrangement may work on a block of rows: entry (p, q) of the block's result is entry (P, q) of the layer
  when row p of each block operand is row P of the whole operand.
-/
import proofs.«118665_j73641509257822_2_alg».proof.Proof.LibMatmulAt
import proofs.«118665_j73641509257822_2_alg».proof.Proof.LibHostDot
import proofs.«118665_j73641509257822_2_alg».proof.Proof.LibColumn
import proofs.«118665_j73641509257822_2_alg».proof.Proof.LibConcatCols
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.Sage

open Idealize.ShloMosaic Idealize.ShloMosaic.ValueIdx

/-- One entry of the layer, from a row of the features, the same row of the message sums, that row's degree, a column
    of each weight matrix and the bias at that column. -/
def entry {K : ℕ} (xr sr : Fin K → EReal) (dr : EReal) (wsc wnc : Fin K → EReal) (bq : EReal) : EReal :=
  (∑ k : Fin K, xr k * wsc k + ∑ k : Fin K, Ideal.div (sr k) dr * wnc k) + bq

/-- The entry depends on its six arguments only through their values. -/
theorem entry_congr {K : ℕ} {xr xr' sr sr' : Fin K → EReal} {dr dr' : EReal} {wsc wsc' wnc wnc' : Fin K → EReal}
    {bq bq' : EReal} (h1 : ∀ k, xr k = xr' k) (h2 : ∀ k, sr k = sr' k) (h3 : dr = dr') (h4 : ∀ k, wsc k = wsc' k)
    (h5 : ∀ k, wnc k = wnc' k) (h6 : bq = bq') : entry xr sr dr wsc wnc bq = entry xr' sr' dr' wsc' wnc' bq' := by
  rw [funext h1, funext h2, h3, funext h4, funext h5, h6]

/-- A sum of K + K terms is the sum of the first K and the sum of the last K. -/
theorem sum_stacked {K K2 : ℕ} (hK : K2 = K + K) (f : Fin K2 → EReal) :
    ∑ k : Fin K2, f k
      = ∑ k : Fin K, f ⟨k.val, by have := k.isLt; omega⟩ + ∑ k : Fin K, f ⟨K + k.val, by have := k.isLt; omega⟩ := by
  subst hK
  rw [Fin.sum_univ_add]
  rfl

/-- The host's plain product [N, K] × [K, C], for any record of dimension numbers with the six lists of such a product,
    at (P, q): the sum over k of the left operand at (P, k) times the right at (k, q). -/
theorem hostDot_at {N K C : ℕ} {φ₁ φ₂ : FTy} (D : DotDims ⟨2, ![N, K]⟩ ⟨2, ![K, C]⟩ ⟨2, ![N, C]⟩)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![N, K]⟩ φ₁) (r : FVec Ideal ⟨2, ![K, C]⟩ φ₂) (P : Fin N) (q : Fin C) :
    Host.dotGeneral (F := Ideal) D none l r (ix2 P q) = ∑ k : Fin K, l (ix2 P k) * r (ix2 k q) := by
  obtain ⟨lc, rc, ln, rn, lb, rb, wf⟩ := D
  dsimp only at hlc hrc hln hrn hlb hrb
  subst hlc hrc hln hrn hlb hrb
  exact Cert.LibHostDot.hostDot_apply wf none l r P q

/-! ## The stacked arrangement, on a block of rows -/

section Stacked
variable {R K K2 C : ℕ} (hK : K2 = K + K)
  (D : DotDims ⟨2, ![R, K2]⟩ ⟨2, ![K2, C]⟩ ⟨2, ![R, C]⟩)
  (hlc : D.lhsContracting = [1]) (hrc : D.rhsContracting = [0]) (hln : D.lhsNonContracting = [0])
  (hrn : D.rhsNonContracting = [1]) (hlb : D.lhsBatch = []) (hrb : D.rhsBatch = [])
  (hcat : Shape.Concatenates [⟨2, ![R, K]⟩, ⟨2, ![R, K]⟩] ⟨2, ![R, K2]⟩ 1)
  (hbd : (⟨2, ![R, 1]⟩ : Shape).Broadcasts ⟨2, ![R, K]⟩)
  (hbb : (⟨2, ![1, C]⟩ : Shape).Broadcasts ⟨2, ![R, C]⟩)
include hK hlc hrc hln hrn hlb hrb

/-- Features and row-wise quotient laid side by side, times the stacked weights, plus the bias row, at (p, q): the
    layer's entry from row p of the block operands, the stacked matrix's first K rows as Ws and last K rows as Wn. -/
theorem stacked_block_apply (x0 x1 : FVec Ideal ⟨2, ![R, K]⟩ .f32) (x2 : FVec Ideal ⟨2, ![R, 1]⟩ .f32)
    (w : FVec Ideal ⟨2, ![K2, C]⟩ .f32) (brow : FVec Ideal ⟨2, ![1, C]⟩ .f32) (p : Fin R) (q : Fin C) :
    addf (matmul D none
        (concatenate ⟨2, ![R, K2]⟩ 1
          [⟨⟨2, ![R, K]⟩, x0⟩, ⟨⟨2, ![R, K]⟩, divf x1 (broadcastTo ⟨2, ![R, K]⟩ x2 hbd)⟩] hcat)
        w (constant (F := Ideal) ⟨2, ![R, C]⟩ .f32 0x00000000#32))
      (broadcastTo ⟨2, ![R, C]⟩ brow hbb) (ix2 p q)
    = entry (fun k => x0 (ix2 p k)) (fun k => x1 (ix2 p k)) (x2 (ix2 p (0 : Fin 1)))
        (fun k => w (ix2 (⟨k.val, by have := k.isLt; omega⟩ : Fin K2) q))
        (fun k => w (ix2 (⟨K + k.val, by have := k.isLt; omega⟩ : Fin K2) q)) (brow (ix2 (0 : Fin 1) q)) := by
  rw [addf_apply, Cert.LibMatmulAt.matmul_zero_apply D hlc hrc hln hrn hlb hrb, broadcastTo_1b_ab_apply,
    sum_stacked hK]
  unfold entry
  refine congrArg (· + brow (ix2 (0 : Fin 1) q)) ?_
  refine congrArg₂ (· + ·) (Finset.sum_congr rfl fun k _ => ?_) (Finset.sum_congr rfl fun k _ => ?_)
  · rw [Cert.LibConcatCols.concat_cols_left x0 _ hcat p k _ rfl]
  · rw [Cert.LibConcatCols.concat_cols_right x0 _ hcat p k _ rfl, divf_apply,
      Cert.LibColumn.broadcastTo_a1_ab_apply]

end Stacked

/-! ## The two-product arrangement, on the whole arrays -/

section TwoProducts
variable {N K C : ℕ}
  (D : DotDims ⟨2, ![N, K]⟩ ⟨2, ![K, C]⟩ ⟨2, ![N, C]⟩)
  (hlc : D.lhsContracting = [1]) (hrc : D.rhsContracting = [0]) (hln : D.lhsNonContracting = [0])
  (hrn : D.rhsNonContracting = [1]) (hlb : D.lhsBatch = []) (hrb : D.rhsBatch = [])
  (hd1 : (⟨1, ![N]⟩ : Shape).BroadcastsInDim ⟨2, ![N, 1]⟩ ![0])
  (hd2 : (⟨2, ![N, 1]⟩ : Shape).BroadcastsInDim ⟨2, ![N, K]⟩ ![0, 1])
  (hb1 : (⟨1, ![C]⟩ : Shape).BroadcastsInDim ⟨2, ![1, C]⟩ ![1])
  (hb2 : (⟨2, ![1, C]⟩ : Shape).BroadcastsInDim ⟨2, ![N, C]⟩ ![0, 1])
include hlc hrc hln hrn hlb hrb

/-- X · Ws + (S / d) · Wn + b with the degree repeated along each row and the bias down each column, at (P, q): the
    layer's entry from row P, column q. -/
theorem two_products_apply (X S : FVec Ideal ⟨2, ![N, K]⟩ .f32) (d : FVec Ideal ⟨1, ![N]⟩ .f32)
    (Ws Wn : FVec Ideal ⟨2, ![K, C]⟩ .f32) (b : FVec Ideal ⟨1, ![C]⟩ .f32) (P : Fin N) (q : Fin C) :
    addf (addf (Host.dotGeneral (F := Ideal) D none X Ws)
        (Host.dotGeneral (F := Ideal) D none
          (Host.divf (F := Ideal) S (broadcastInDim ⟨2, ![N, K]⟩ ![0, 1] hd2 (broadcastInDim ⟨2, ![N, 1]⟩ ![0] hd1 d))) Wn))
      (broadcastInDim ⟨2, ![N, C]⟩ ![0, 1] hb2 (broadcastInDim ⟨2, ![1, C]⟩ ![1] hb1 b)) (ix2 P q)
    = entry (fun k => X (ix2 P k)) (fun k => S (ix2 P k)) (d (ix1 P)) (fun k => Ws (ix2 k q)) (fun k => Wn (ix2 k q))
        (b (ix1 q)) := by
  rw [addf_apply, addf_apply, hostDot_at D hlc hrc hln hrn hlb hrb, hostDot_at D hlc hrc hln hrn hlb hrb,
    Cert.LibColumn.bcastInDim_1b_ab_apply, Cert.LibColumn.bcastInDim_b_1b_apply]
  unfold entry
  refine congrArg (· + b (ix1 q)) ?_
  refine congrArg (∑ k : Fin K, X (ix2 P k) * Ws (ix2 k q) + ·) (Finset.sum_congr rfl fun k _ => ?_)
  rw [hostDivf_apply, Cert.LibColumn.bcastInDim_a1_ab_apply, Cert.LibColumn.bcastInDim_a_a1_apply]

end TwoProducts

/-! ## The layer on whole arrays -/

/-- The rectifier, entry by entry: the maximum with the value of the zero word. -/
def relu {s : Shape} (v : s.Idx → EReal) : s.Idx → EReal := fun j => max (v j) (Ideal.ofBits .f32 0x00000000#32)

/-- The layer, its operands as the two-product arrangement takes them: the degree a vector, the two weight matrices
    apart, the bias a vector. -/
def layer {N K C : ℕ} (X S : (⟨2, ![N, K]⟩ : Shape).Idx → EReal) (d : (⟨1, ![N]⟩ : Shape).Idx → EReal)
    (Ws Wn : (⟨2, ![K, C]⟩ : Shape).Idx → EReal) (b : (⟨1, ![C]⟩ : Shape).Idx → EReal) :
    (⟨2, ![N, C]⟩ : Shape).Idx → EReal :=
  fun j => entry (fun k => X (ix2 (j 0) k)) (fun k => S (ix2 (j 0) k)) (d (ix1 (j 0))) (fun k => Ws (ix2 k (j 1)))
    (fun k => Wn (ix2 k (j 1))) (b (ix1 (j 1)))

theorem layer_apply {N K C : ℕ} (X S : (⟨2, ![N, K]⟩ : Shape).Idx → EReal) (d : (⟨1, ![N]⟩ : Shape).Idx → EReal)
    (Ws Wn : (⟨2, ![K, C]⟩ : Shape).Idx → EReal) (b : (⟨1, ![C]⟩ : Shape).Idx → EReal) (P : Fin N) (q : Fin C) :
    layer X S d Ws Wn b (ix2 P q)
      = entry (fun k => X (ix2 P k)) (fun k => S (ix2 P k)) (d (ix1 P)) (fun k => Ws (ix2 k q)) (fun k => Wn (ix2 k q))
          (b (ix1 q)) := rfl

/-- The layer, its operands as the stacked arrangement takes them: the degree a column [N, 1], the weight matrices
    stacked into [K + K, C], the bias a row [1, C]. -/
def stacked {N K K2 C : ℕ} (hK : K2 = K + K) (X S : (⟨2, ![N, K]⟩ : Shape).Idx → EReal)
    (Dc : (⟨2, ![N, 1]⟩ : Shape).Idx → EReal) (W : (⟨2, ![K2, C]⟩ : Shape).Idx → EReal)
    (B : (⟨2, ![1, C]⟩ : Shape).Idx → EReal) : (⟨2, ![N, C]⟩ : Shape).Idx → EReal :=
  fun j => entry (fun k => X (ix2 (j 0) k)) (fun k => S (ix2 (j 0) k)) (Dc (ix2 (j 0) (0 : Fin 1)))
    (fun k => W (ix2 (⟨k.val, by have := k.isLt; omega⟩ : Fin K2) (j 1)))
    (fun k => W (ix2 (⟨K + k.val, by have := k.isLt; omega⟩ : Fin K2) (j 1))) (B (ix2 (0 : Fin 1) (j 1)))

theorem stacked_apply {N K K2 C : ℕ} (hK : K2 = K + K) (X S : (⟨2, ![N, K]⟩ : Shape).Idx → EReal)
    (Dc : (⟨2, ![N, 1]⟩ : Shape).Idx → EReal) (W : (⟨2, ![K2, C]⟩ : Shape).Idx → EReal)
    (B : (⟨2, ![1, C]⟩ : Shape).Idx → EReal) (P : Fin N) (q : Fin C) :
    stacked hK X S Dc W B (ix2 P q)
      = entry (fun k => X (ix2 P k)) (fun k => S (ix2 P k)) (Dc (ix2 P (0 : Fin 1)))
          (fun k => W (ix2 (⟨k.val, by have := k.isLt; omega⟩ : Fin K2) q))
          (fun k => W (ix2 (⟨K + k.val, by have := k.isLt; omega⟩ : Fin K2) q)) (B (ix2 (0 : Fin 1) q)) := rfl

variable {α : Type}

/-- Two matrices stacked along the row axis: row k of the whole, for k below the first's height, is its row k. -/
theorem concat_rows_top {K₁ K₂ D C : ℕ} (x₁ : (⟨2, ![K₁, C]⟩ : Shape).Idx → α) (x₂ : (⟨2, ![K₂, C]⟩ : Shape).Idx → α)
    (h : Shape.Concatenates [⟨2, ![K₁, C]⟩, ⟨2, ![K₂, C]⟩] ⟨2, ![D, C]⟩ 0) (k : Fin K₁) (r : Fin D) (q : Fin C)
    (hr : r.val = k.val) :
    concatenate ⟨2, ![D, C]⟩ 0 [⟨⟨2, ![K₁, C]⟩, x₁⟩, ⟨⟨2, ![K₂, C]⟩, x₂⟩] h (ix2 r q) = x₁ (ix2 k q) :=
  concatenate_pair_apply_left 0 x₁ x₂ h (ix2 r q) rfl (ix2 k q) fun b =>
    match b with
    | ⟨0, _⟩ => hr.symm
    | ⟨1, _⟩ => rfl

/-- Row K₁ + k of the whole is row k of the second. -/
theorem concat_rows_bottom {K₁ K₂ D C : ℕ} (x₁ : (⟨2, ![K₁, C]⟩ : Shape).Idx → α) (x₂ : (⟨2, ![K₂, C]⟩ : Shape).Idx → α)
    (h : Shape.Concatenates [⟨2, ![K₁, C]⟩, ⟨2, ![K₂, C]⟩] ⟨2, ![D, C]⟩ 0) (k : Fin K₂) (r : Fin D) (q : Fin C)
    (hr : r.val = K₁ + k.val) :
    concatenate ⟨2, ![D, C]⟩ 0 [⟨⟨2, ![K₁, C]⟩, x₁⟩, ⟨⟨2, ![K₂, C]⟩, x₂⟩] h (ix2 r q) = x₂ (ix2 k q) :=
  concatenate_pair_apply_right 0 x₁ x₂ h (ix2 r q) rfl rfl (ix2 k q)
    (fun b hb =>
      match b, hb with
      | ⟨0, _⟩, hb => absurd rfl hb
      | ⟨1, _⟩, _ => rfl)
    (by show k.val + K₁ = r.val; omega)

/-- The stacked arrangement on the degree vector set up as a column, the two weight matrices stacked and the bias
    vector set up as a row IS the layer. -/
theorem stacked_eq_layer {N K K2 C : ℕ} (hK : K2 = K + K) (X S : (⟨2, ![N, K]⟩ : Shape).Idx → EReal)
    (d : (⟨1, ![N]⟩ : Shape).Idx → EReal) (Ws Wn : (⟨2, ![K, C]⟩ : Shape).Idx → EReal)
    (b : (⟨1, ![C]⟩ : Shape).Idx → EReal)
    (hd : (⟨1, ![N]⟩ : Shape).ShapeCasts ⟨2, ![N, 1]⟩)
    (hw : Shape.Concatenates [⟨2, ![K, C]⟩, ⟨2, ![K, C]⟩] ⟨2, ![K2, C]⟩ 0)
    (hb : (⟨1, ![C]⟩ : Shape).ShapeCasts ⟨2, ![1, C]⟩) :
    stacked hK X S (shapeCast ⟨2, ![N, 1]⟩ d hd)
        (concatenate ⟨2, ![K2, C]⟩ 0 [⟨⟨2, ![K, C]⟩, Ws⟩, ⟨⟨2, ![K, C]⟩, Wn⟩] hw) (shapeCast ⟨2, ![1, C]⟩ b hb)
      = layer X S d Ws Wn b := by
  funext j
  obtain ⟨P, q, rfl⟩ : ∃ (P : Fin N) (q : Fin C), j = ix2 P q := ⟨j 0, j 1, eq_ix2 j⟩
  rw [stacked_apply, layer_apply, Cert.LibColumn.shapeCast_a_a1_apply, shapeCast_a_1a_apply]
  refine congrArg₂ (fun f g => entry (fun k => X (ix2 P k)) (fun k => S (ix2 P k)) (d (ix1 P)) f g (b (ix1 q))) ?_ ?_
  · funext k; exact concat_rows_top Ws Wn hw k _ q rfl
  · funext k; exact concat_rows_bottom Ws Wn hw k _ q rfl

end Cert.Sage

end
-- ==== Proof.Region0.lean ====
/-
  The first layer's region, from row blocks to the whole array.

  The region runs the stacked arrangement of the layer on five blocks of 10000 rows: at point t it reads rows
  10000 t … 10000 t + 9999 of the features, of the message sums and of the degree column, the whole stacked weight
  matrix and the whole bias row, and writes the same rows of its output. Entry (p, q) of a block's result depends on row p
  of the block operands only, so it is entry (10000 t + p, q) of the layer on the whole arrays, rectified; the five blocks
  tile the output array, which therefore ends holding the rectified layer of the arrays the region found.
  Everything is stated for ANY contents V the region is entered with.
-/
import proofs.«118665_j73641509257822_2_alg».proof.Proof.Gen.KernelIdeal.Frame
import proofs.«118665_j73641509257822_2_alg».proof.Proof.LibSageLayer
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Sage

variable (V : (c : Dev nD) → (b : Ref sig .tc) → Buf (Elt Ideal) ((c : Thread nD τ).loc b))

/-- The zero offsets of a whole-buffer access, as a function. -/
theorem zero_offsets0 : (![0, 0] : Fin 2 → Nat) = fun _ => 0 := funext fun a => by fin_cases a <;> rfl

/-! ## Region 0: layer 1 on row blocks of 10000 -/

/-- The body's value at (p, q) of its block: the layer's entry from row p of the block operands, rectified. -/
theorem pay0_at (x0 x1 : Vec Ideal S10000x64 .f32) (x2 : Vec Ideal S10000x1 .f32) (x3 : Vec Ideal S128x64 .f32)
    (x4 : Vec Ideal S1x64 .f32) (p : Fin 10000) (q : Fin 64) :
    k0_pay1 x0 x1 x2 x3 x4 (ix2 p q)
      = max (entry (fun k : Fin 64 => x0 (ix2 p k)) (fun k : Fin 64 => x1 (ix2 p k)) (x2 (ix2 p (0 : Fin 1)))
        (fun k : Fin 64 => x3 (ix2 (⟨k.val, by have := k.isLt; omega⟩ : Fin 128) q))
        (fun k : Fin 64 => x3 (ix2 (⟨64 + k.val, by have := k.isLt; omega⟩ : Fin 128) q)) (x4 (ix2 (0 : Fin 1) q))) (Ideal.ofBits .f32 0x00000000#32) := by
  simp only [k0_pay1, shapeCast_self]
  refine (maximumf_apply _ _ _).trans ?_
  rw [shapeCast_self x1, shapeCast_self x2]
  exact congrArg₂ max (stacked_block_apply (R := 10000) (K := 64) (K2 := 128) (C := 64) rfl dot_S10000x128_S128x64_S10000x64_1_0_0_1_n_n rfl rfl rfl rfl rfl rfl
    concatenates_S10000x64_S10000x64_S10000x128_d1 broadcasts_S10000x1_S10000x64 broadcasts_S1x64_S10000x64 x0 x1 x2 x3 x4 p q) rfl

/-- The block indices of the six windows at point t: the three row-tiled inputs and the output sit at row block t,
    the stacked weights and the bias row are whole. -/
theorem idx0 : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0 :=
  (by decide +kernel : ∀ t : Fin grid0.N, _)

/-- Row p of the feature block at point t is row 10000 t + p of the feature array. -/
theorem blk0_0 (c : Dev nD) (t : Fin cfg0.N) (p : Fin 10000) (k : Fin 64) (P : Fin 50000) (hP : P.val = t.val * 10000 + p.val) :
    (iblk0 V c 0 t : Vec Ideal S10000x64 .f32) (ix2 p k) = (V c main_arg0 : S50000x64.Idx → EReal) (ix2 P k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 10000 + 1 * p.val = P.val; rw [e0, hP]; omega
  | ⟨1, _⟩ => show win0_0.index t 1 * 64 + 1 * k.val = k.val; rw [e1]; omega

/-- The same for the message sums. -/
theorem blk0_1 (c : Dev nD) (t : Fin cfg0.N) (p : Fin 10000) (k : Fin 64) (P : Fin 50000) (hP : P.val = t.val * 10000 + p.val) :
    (iblk0 V c 1 t : Vec Ideal S10000x64 .f32) (ix2 p k) = (V c main_v19 : S50000x64.Idx → EReal) (ix2 P k) := by
  obtain ⟨-, -, e0, e1, -⟩ := idx0 t
  unfold iblk0
  rw [View.read_apply]
  show V c main_v19 _ = V c main_v19 _
  congr 1
  funext a
  apply Fin.ext
  match a with
  | ⟨0, _⟩ => show win0_1.index t 0 * 10000 + 1 * p.val = P.val; rw [e0, hP]; omega
  | ⟨1, _⟩ => show win0_1.index t 1 * 64 + 1 * k.val = k.val; rw [e1]; omega

/-- The same for the degree column. -/
theorem blk0_2 (c : Dev nD) (t : Fin cfg0.N) (p : Fin 10000) (P : Fin 50000) (hP : P.val = t.val * 10000 + p.val) :
    (iblk0 V c 2 t : Vec Ideal S10000x1 .f32) (ix2 p (0 : Fin 1)) = (V c main_v6 : S50000x1.Idx → EReal) (ix2 P (0 : Fin 1)) := by
  obtain ⟨-, -, -, -, e0, e1, -⟩ := idx0 t
  unfold iblk0
  rw [View.read_apply]
  show V c main_v6 _ = V c main_v6 _
  congr 1
  funext a
  apply Fin.ext
  match a with
  | ⟨0, _⟩ => show win0_2.index t 0 * 10000 + 1 * p.val = P.val; rw [e0, hP]; omega
  | ⟨1, _⟩ => show win0_2.index t 1 * 1 + 1 * 0 = 0; rw [e1]

/-- The stacked weights' block is the whole matrix at every point. -/
theorem blk0_3 (c : Dev nD) (t : Fin cfg0.N) (k : Fin 128) (q : Fin 64) :
    (iblk0 V c 3 t : Vec Ideal S128x64 .f32) (ix2 k q) = (V c main_v20 : S128x64.Idx → EReal) (ix2 k q) := by
  obtain ⟨-, -, -, -, -, -, e0, e1, -⟩ := idx0 t
  unfold iblk0
  rw [View.read_apply]
  show V c main_v20 _ = V c main_v20 _
  congr 1
  funext a
  apply Fin.ext
  match a with
  | ⟨0, _⟩ => show win0_3.index t 0 * 128 + 1 * k.val = k.val; rw [e0]; omega
  | ⟨1, _⟩ => show win0_3.index t 1 * 64 + 1 * q.val = q.val; rw [e1]; omega

/-- So is the bias row's. -/
theorem blk0_4 (c : Dev nD) (t : Fin cfg0.N) (q : Fin 64) :
    (iblk0 V c 4 t : Vec Ideal S1x64 .f32) (ix2 (0 : Fin 1) q) = (V c main_v21 : S1x64.Idx → EReal) (ix2 (0 : Fin 1) q) := by
  obtain ⟨-, -, -, -, -, -, -, -, e0, e1, -⟩ := idx0 t
  unfold iblk0
  rw [View.read_apply]
  show V c main_v21 _ = V c main_v21 _
  congr 1
  funext a
  apply Fin.ext
  match a with
  | ⟨0, _⟩ => show win0_4.index t 0 * 1 + 1 * 0 = 0; rw [e0]
  | ⟨1, _⟩ => show win0_4.index t 1 * 64 + 1 * q.val = q.val; rw [e1]; omega

/-- What the region's output array ends holding, as one function of the five arrays the region reads: the layer, rectified. -/
def out0 (X S : S50000x64.Idx → EReal) (Dc : S50000x1.Idx → EReal) (W : S128x64.Idx → EReal) (B : S1x64.Idx → EReal) :
    S50000x64.Idx → EReal :=
  relu (stacked (K := 64) (K2 := 128) rfl X S Dc W B)

/-- What point t writes back is block t of that function of the arrays as the region finds them. -/
theorem flushed0_eq (c : Dev nD) (t : Fin cfg0.N) :
    (dat0 V c).flushed 5 t = ((cfg0.win 5).blk t).view.read (Elt Ideal)
      (out0 (V c main_arg0) (V c main_v19) (V c main_v6) (V c main_v20) (V c main_v21)) := by
  show (cfg0.win 5).cut (grid0.coords t) ((dat0 V c).after 5 t) = _
  rw [after0_5]
  unfold out0_5
  rw [View.canon_unit_zero zero_offsets0]
  simp only [View.ld_unit_zero (S := S10000x64) zero_offsets0, View.ld_unit_zero (S := S10000x1) zero_offsets0,
    View.ld_unit_zero (S := S128x64) zero_offsets0, View.ld_unit_zero (S := S1x64) zero_offsets0]
  funext j
  obtain ⟨p, q, rfl⟩ : ∃ (p : Fin 10000) (q : Fin 64), j = ix2 p q := ⟨j 0, j 1, eq_ix2 j⟩
  have hPlt : t.val * 10000 + p.val < 50000 := by
    have h1 : t.val < 5 := Nat.lt_of_lt_of_eq t.isLt N_0
    have h2 := p.isLt
    omega
  obtain ⟨-, -, -, -, -, -, -, -, -, -, e0, e1⟩ := idx0 t
  have hemb : ((cfg0.win 5).blk t).view.emb (ix2 p q) = (ix2 (⟨t.val * 10000 + p.val, hPlt⟩ : Fin 50000) q : S50000x64.Idx) := by
    funext a
    apply Fin.ext
    match a with
    | ⟨0, _⟩ => show win0_5.index t 0 * 10000 + 1 * p.val = t.val * 10000 + p.val; rw [e0]; omega
    | ⟨1, _⟩ => show win0_5.index t 1 * 64 + 1 * q.val = q.val; rw [e1]; omega
  show k0_pay1 (iblk0 V c 0 t) (iblk0 V c 1 t) (iblk0 V c 2 t) (iblk0 V c 3 t) (iblk0 V c 4 t) (ix2 p q)
    = out0 (V c main_arg0) (V c main_v19) (V c main_v6) (V c main_v20) (V c main_v21) (((cfg0.win 5).blk t).view.emb (ix2 p q))
  rw [hemb, pay0_at]
  unfold out0 relu
  rw [stacked_apply]
  refine congrArg₂ max ?_ rfl
  exact entry_congr (fun k => blk0_0 V c t p k _ rfl) (fun k => blk0_1 V c t p k _ rfl) (blk0_2 V c t p _ rfl)
    (fun k => blk0_3 V c t _ q) (fun k => blk0_3 V c t _ q) (blk0_4 V c t q)

/-- An index of the output array is in point t's block iff each coordinate is in the block's range on its axis. -/
theorem mem_blk0 (t : Fin cfg0.N) (i : S50000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v22).slice (win0_5.rect t)).set ↔ _
  rw [View.set_slice_whole, Rect.mem_set_unit]
  exact Iff.rfl

/-- Row r of the output array lies in the block of point r / 10000: the five blocks tile the array. -/
theorem cover0 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have ht : (i 0).val / 10000 < grid0.N := Nat.lt_of_lt_of_eq (by omega : (i 0).val / 10000 < 5) N_0.symm
  refine ⟨⟨(i 0).val / 10000, ht⟩, flush0_5 _, ?_⟩
  rw [mem_blk0]
  obtain ⟨-, -, -, -, -, -, -, -, -, -, e0, e1⟩ := idx0 ⟨(i 0).val / 10000, ht⟩
  intro a
  match a with
  | ⟨0, _⟩ =>
    show win0_5.index ⟨(i 0).val / 10000, ht⟩ 0 * 10000 ≤ (i 0).val
      ∧ (i 0).val < win0_5.index ⟨(i 0).val / 10000, ht⟩ 0 * 10000 + 10000
    rw [e0]
    show (i 0).val / 10000 * 10000 ≤ (i 0).val ∧ (i 0).val < (i 0).val / 10000 * 10000 + 10000
    omega
  | ⟨1, _⟩ =>
    show win0_5.index ⟨(i 0).val / 10000, ht⟩ 1 * 64 ≤ (i 1).val
      ∧ (i 1).val < win0_5.index ⟨(i 0).val / 10000, ht⟩ 1 * 64 + 64
    rw [e1]
    omega

/-- THE REGION'S OUTPUT ARRAY after its five write-backs is that function of the arrays the region found. -/
theorem final0 (c : Dev nD) : (dat0 V c).arrAt 5 cfg0.N
    = out0 (V c main_arg0) (V c main_v19) (V c main_v6) (V c main_v20) (V c main_v21) :=
  (dat0 V c).arrAt_eq_of_cover 5 _ (fun t _ => flushed0_eq V c t) cover0

end Cert.KernelIdeal.Hand

end
-- ==== Proof.Region1.lean ====
/-
  The second layer's region, from row blocks to the whole array.

  The region runs the stacked arrangement of the layer on five blocks of 10000 rows, without a rectifier and with 32
  output columns: at point t it reads rows 10000 t … 10000 t + 9999 of the hidden features, of their message sums and
  of the degree column, the whole stacked weight matrix and the whole bias row, and writes the same rows of its
  output. Entry (p, q) of a block's result is entry (10000 t + p, q) of the layer on the whole arrays, and the five
  blocks tile the output array. Everything is stated for ANY contents V the region is entered with.
-/
import proofs.«118665_j73641509257822_2_alg».proof.Proof.Gen.KernelIdeal.Frame
import proofs.«118665_j73641509257822_2_alg».proof.Proof.LibSageLayer
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Sage

variable (V : (c : Dev nD) → (b : Ref sig .tc) → Buf (Elt Ideal) ((c : Thread nD τ).loc b))

/-- The zero offsets of a whole-buffer access, as a function. -/
theorem zero_offsets1 : (![0, 0] : Fin 2 → Nat) = fun _ => 0 := funext fun a => by fin_cases a <;> rfl

/-! ## Region 1: layer 2 on row blocks of 10000 -/

/-- The body's value at (p, q) of its block: the layer's entry from row p of the block operands. -/
theorem pay1_at (x0 x1 : Vec Ideal S10000x64 .f32) (x2 : Vec Ideal S10000x1 .f32) (x3 : Vec Ideal S128x32 .f32)
    (x4 : Vec Ideal S1x32 .f32) (p : Fin 10000) (q : Fin 32) :
    k1_pay1 x0 x1 x2 x3 x4 (ix2 p q)
      = entry (fun k : Fin 64 => x0 (ix2 p k)) (fun k : Fin 64 => x1 (ix2 p k)) (x2 (ix2 p (0 : Fin 1)))
        (fun k : Fin 64 => x3 (ix2 (⟨k.val, by have := k.isLt; omega⟩ : Fin 128) q))
        (fun k : Fin 64 => x3 (ix2 (⟨64 + k.val, by have := k.isLt; omega⟩ : Fin 128) q)) (x4 (ix2 (0 : Fin 1) q)) := by
  simp only [k1_pay1, shapeCast_self]
  rw [shapeCast_self x0, shapeCast_self x1, shapeCast_self x2]
  exact stacked_block_apply (R := 10000) (K := 64) (K2 := 128) (C := 32) rfl dot_S10000x128_S128x32_S10000x32_1_0_0_1_n_n rfl rfl rfl rfl rfl rfl
    concatenates_S10000x64_S10000x64_S10000x128_d1 broadcasts_S10000x1_S10000x64 broadcasts_S1x32_S10000x32 x0 x1 x2 x3 x4 p q

/-- The block indices of the six windows at point t: the three row-tiled inputs and the output sit at row block t,
    the stacked weights and the bias row are whole. -/
theorem idx1 : ∀ t : Fin cfg1.N, win1_0.index t 0 = t.val ∧ win1_0.index t 1 = 0 ∧ win1_1.index t 0 = t.val ∧ win1_1.index t 1 = 0
    ∧ win1_2.index t 0 = t.val ∧ win1_2.index t 1 = 0 ∧ win1_3.index t 0 = 0 ∧ win1_3.index t 1 = 0
    ∧ win1_4.index t 0 = 0 ∧ win1_4.index t 1 = 0 ∧ win1_5.index t 0 = t.val ∧ win1_5.index t 1 = 0 :=
  (by decide +kernel : ∀ t : Fin grid1.N, _)

/-- Row p of the feature block at point t is row 10000 t + p of the feature array. -/
theorem blk1_0 (c : Dev nD) (t : Fin cfg1.N) (p : Fin 10000) (k : Fin 64) (P : Fin 50000) (hP : P.val = t.val * 10000 + p.val) :
    (iblk1 V c 0 t : Vec Ideal S10000x64 .f32) (ix2 p k) = (V c main_v22 : S50000x64.Idx → EReal) (ix2 P k) := by
  obtain ⟨e0, e1, -⟩ := idx1 t
  unfold iblk1
  rw [View.read_apply]
  show V c main_v22 _ = V c main_v22 _
  congr 1
  funext a
  apply Fin.ext
  match a with
  | ⟨0, _⟩ => show win1_0.index t 0 * 10000 + 1 * p.val = P.val; rw [e0, hP]; omega
  | ⟨1, _⟩ => show win1_0.index t 1 * 64 + 1 * k.val = k.val; rw [e1]; omega

/-- The same for the message sums. -/
theorem blk1_1 (c : Dev nD) (t : Fin cfg1.N) (p : Fin 10000) (k : Fin 64) (P : Fin 50000) (hP : P.val = t.val * 10000 + p.val) :
    (iblk1 V c 1 t : Vec Ideal S10000x64 .f32) (ix2 p k) = (V c main_v32 : S50000x64.Idx → EReal) (ix2 P k) := by
  obtain ⟨-, -, e0, e1, -⟩ := idx1 t
  unfold iblk1
  rw [View.read_apply]
  show V c main_v32 _ = V c main_v32 _
  congr 1
  funext a
  apply Fin.ext
  match a with
  | ⟨0, _⟩ => show win1_1.index t 0 * 10000 + 1 * p.val = P.val; rw [e0, hP]; omega
  | ⟨1, _⟩ => show win1_1.index t 1 * 64 + 1 * k.val = k.val; rw [e1]; omega

/-- The same for the degree column. -/
theorem blk1_2 (c : Dev nD) (t : Fin cfg1.N) (p : Fin 10000) (P : Fin 50000) (hP : P.val = t.val * 10000 + p.val) :
    (iblk1 V c 2 t : Vec Ideal S10000x1 .f32) (ix2 p (0 : Fin 1)) = (V c main_v6 : S50000x1.Idx → EReal) (ix2 P (0 : Fin 1)) := by
  obtain ⟨-, -, -, -, e0, e1, -⟩ := idx1 t
  unfold iblk1
  rw [View.read_apply]
  show V c main_v6 _ = V c main_v6 _
  congr 1
  funext a
  apply Fin.ext
  match a with
  | ⟨0, _⟩ => show win1_2.index t 0 * 10000 + 1 * p.val = P.val; rw [e0, hP]; omega
  | ⟨1, _⟩ => show win1_2.index t 1 * 1 + 1 * 0 = 0; rw [e1]

/-- The stacked weights' block is the whole matrix at every point. -/
theorem blk1_3 (c : Dev nD) (t : Fin cfg1.N) (k : Fin 128) (q : Fin 32) :
    (iblk1 V c 3 t : Vec Ideal S128x32 .f32) (ix2 k q) = (V c main_v33 : S128x32.Idx → EReal) (ix2 k q) := by
  obtain ⟨-, -, -, -, -, -, e0, e1, -⟩ := idx1 t
  unfold iblk1
  rw [View.read_apply]
  show V c main_v33 _ = V c main_v33 _
  congr 1
  funext a
  apply Fin.ext
  match a with
  | ⟨0, _⟩ => show win1_3.index t 0 * 128 + 1 * k.val = k.val; rw [e0]; omega
  | ⟨1, _⟩ => show win1_3.index t 1 * 32 + 1 * q.val = q.val; rw [e1]; omega

/-- So is the bias row's. -/
theorem blk1_4 (c : Dev nD) (t : Fin cfg1.N) (q : Fin 32) :
    (iblk1 V c 4 t : Vec Ideal S1x32 .f32) (ix2 (0 : Fin 1) q) = (V c main_v34 : S1x32.Idx → EReal) (ix2 (0 : Fin 1) q) := by
  obtain ⟨-, -, -, -, -, -, -, -, e0, e1, -⟩ := idx1 t
  unfold iblk1
  rw [View.read_apply]
  show V c main_v34 _ = V c main_v34 _
  congr 1
  funext a
  apply Fin.ext
  match a with
  | ⟨0, _⟩ => show win1_4.index t 0 * 1 + 1 * 0 = 0; rw [e0]
  | ⟨1, _⟩ => show win1_4.index t 1 * 32 + 1 * q.val = q.val; rw [e1]; omega

/-- What the region's output array ends holding, as one function of the five arrays the region reads: the layer. -/
def out1 (X S : S50000x64.Idx → EReal) (Dc : S50000x1.Idx → EReal) (W : S128x32.Idx → EReal) (B : S1x32.Idx → EReal) :
    S50000x32.Idx → EReal :=
  stacked (K := 64) (K2 := 128) rfl X S Dc W B

/-- What point t writes back is block t of that function of the arrays as the region finds them. -/
theorem flushed1_eq (c : Dev nD) (t : Fin cfg1.N) :
    (dat1 V c).flushed 5 t = ((cfg1.win 5).blk t).view.read (Elt Ideal)
      (out1 (V c main_v22) (V c main_v32) (V c main_v6) (V c main_v33) (V c main_v34)) := by
  show (cfg1.win 5).cut (grid1.coords t) ((dat1 V c).after 5 t) = _
  rw [after1_5]
  unfold out1_5
  rw [View.canon_unit_zero zero_offsets1]
  simp only [View.ld_unit_zero (S := S10000x64) zero_offsets1, View.ld_unit_zero (S := S10000x1) zero_offsets1,
    View.ld_unit_zero (S := S128x32) zero_offsets1, View.ld_unit_zero (S := S1x32) zero_offsets1]
  funext j
  obtain ⟨p, q, rfl⟩ : ∃ (p : Fin 10000) (q : Fin 32), j = ix2 p q := ⟨j 0, j 1, eq_ix2 j⟩
  have hPlt : t.val * 10000 + p.val < 50000 := by
    have h1 : t.val < 5 := Nat.lt_of_lt_of_eq t.isLt N_1
    have h2 := p.isLt
    omega
  obtain ⟨-, -, -, -, -, -, -, -, -, -, e0, e1⟩ := idx1 t
  have hemb : ((cfg1.win 5).blk t).view.emb (ix2 p q) = (ix2 (⟨t.val * 10000 + p.val, hPlt⟩ : Fin 50000) q : S50000x32.Idx) := by
    funext a
    apply Fin.ext
    match a with
    | ⟨0, _⟩ => show win1_5.index t 0 * 10000 + 1 * p.val = t.val * 10000 + p.val; rw [e0]; omega
    | ⟨1, _⟩ => show win1_5.index t 1 * 32 + 1 * q.val = q.val; rw [e1]; omega
  show k1_pay1 (iblk1 V c 0 t) (iblk1 V c 1 t) (iblk1 V c 2 t) (iblk1 V c 3 t) (iblk1 V c 4 t) (ix2 p q)
    = out1 (V c main_v22) (V c main_v32) (V c main_v6) (V c main_v33) (V c main_v34) (((cfg1.win 5).blk t).view.emb (ix2 p q))
  rw [hemb, pay1_at]
  unfold out1
  rw [stacked_apply]
  exact entry_congr (fun k => blk1_0 V c t p k _ rfl) (fun k => blk1_1 V c t p k _ rfl) (blk1_2 V c t p _ rfl)
    (fun k => blk1_3 V c t _ q) (fun k => blk1_3 V c t _ q) (blk1_4 V c t q)

/-- An index of the output array is in point t's block iff each coordinate is in the block's range on its axis. -/
theorem mem_blk1 (t : Fin cfg1.N) (i : S50000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v35).slice (win1_5.rect t)).set ↔ _
  rw [View.set_slice_whole, Rect.mem_set_unit]
  exact Iff.rfl

/-- Row r of the output array lies in the block of point r / 10000: the five blocks tile the array. -/
theorem cover1 (i : S50000x32.Idx) : ∃ t : Fin cfg1.N, (cfg1.win 5).flush t = true ∧ i ∈ ((cfg1.win 5).blk t).view.set := by
  have hi0 : (i 0).val < 50000 := (i 0).isLt
  have hi1 : (i 1).val < 32 := (i 1).isLt
  have ht : (i 0).val / 10000 < grid1.N := Nat.lt_of_lt_of_eq (by omega : (i 0).val / 10000 < 5) N_1.symm
  refine ⟨⟨(i 0).val / 10000, ht⟩, flush1_5 _, ?_⟩
  rw [mem_blk1]
  obtain ⟨-, -, -, -, -, -, -, -, -, -, e0, e1⟩ := idx1 ⟨(i 0).val / 10000, ht⟩
  intro a
  match a with
  | ⟨0, _⟩ =>
    show win1_5.index ⟨(i 0).val / 10000, ht⟩ 0 * 10000 ≤ (i 0).val
      ∧ (i 0).val < win1_5.index ⟨(i 0).val / 10000, ht⟩ 0 * 10000 + 10000
    rw [e0]
    show (i 0).val / 10000 * 10000 ≤ (i 0).val ∧ (i 0).val < (i 0).val / 10000 * 10000 + 10000
    omega
  | ⟨1, _⟩ =>
    show win1_5.index ⟨(i 0).val / 10000, ht⟩ 1 * 32 ≤ (i 1).val
      ∧ (i 1).val < win1_5.index ⟨(i 0).val / 10000, ht⟩ 1 * 32 + 32
    rw [e1]
    omega

/-- THE REGION'S OUTPUT ARRAY after its five write-backs is that function of the arrays the region found. -/
theorem final1 (c : Dev nD) : (dat1 V c).arrAt 5 cfg1.N
    = out1 (V c main_v22) (V c main_v32) (V c main_v6) (V c main_v33) (V c main_v34) :=
  (dat1 V c).arrAt_eq_of_cover 5 _ (fun t _ => flushed1_eq V c t) cover1

end Cert.KernelIdeal.Hand

end
-- ==== Proof.KernelArrays.lean ====
/-
  The arrays the two regions are entered with, as functions of the program's arguments.

  Before the first region the host computes, from the edge lists: the in-degree of every node floored at one (a scatter
  of ones onto the destination nodes, then the maximum with one), set up as a column; the sum over incoming edges of
  the source node's features times the edge weight (a gather at the source indices — a negative index wrapped round by
  the node count first —, a product with the weight repeated along the row, a scatter-add onto the destination nodes);
  the two weight matrices of the first layer stacked; the first bias as a row. Between the regions it computes the same
  sum, unweighted, of the first region's output, stacks the second layer's weight matrices and sets the second bias up
  as a row. The degree column is computed once and read by both regions. No operation and no region writes an argument,
  so wherever an argument is read it holds its launch contents.
-/
import proofs.«118665_j73641509257822_2_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.Pipeline (Dat)

set_option maxHeartbeats 2000000 in
/-- The in-degree of every node, floored at one: ones scattered onto the destination nodes, then the maximum with one. -/
def degree (dst : IVec S800000 32) : FVec Ideal S50000 .f32 :=
  maximumf
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The source indices as a gather takes them: a negative index wrapped round by the node count, as a column. -/
def wrapped (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The sum, over the edges into each node, of the source node's row times the edge's weight. -/
def weightedSum (x : FVec Ideal S50000x64 .f32) (src dst : IVec S800000 32) (w : FVec Ideal S800000 .f32) :
    FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (Host.gather gather_S50000x64_S800000x1_S800000x64_1_0_n_n_0_1_164 x (wrapped src))
      (broadcastInDim S800000x64 ![0, 1] bcast_S800000x1_S800000x64_0_1
        (broadcastInDim S800000x1 ![0] bcast_S800000_S800000x1_0 w)))

/-- The sum, over the edges into each node, of the source node's row. -/
def plainSum (x : FVec Ideal S50000x64 .f32) (src dst : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x (wrapped src))

variable (m : (ℓ : Loc nD τ sig) → Buf (Elt Ideal) ℓ) (ρ : Dev nD → PrngReg)

/-! ## What the first region finds -/

set_option maxHeartbeats 2000000 in
theorem entry0_features (c : Dev nD) : V1 m ρ c main_arg0 = (m ((c : Thread nD τ).loc main_arg0)) := by
  show StableHlo.after hostOps0 (W0 m ρ c) (Proc.devRef .tc main_arg0) = _
  after_results <;> rfl

set_option maxHeartbeats 2000000 in
theorem entry0_sums (c : Dev nD) :
    V1 m ρ c main_v19 = weightedSum (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v19) = _
  after_results_simp <;> rfl

set_option maxHeartbeats 2000000 in
theorem entry0_degree (c : Dev nD) :
    V1 m ρ c main_v6 = shapeCast S50000x1 (degree (m ((c : Thread nD τ).loc main_arg2))) shapeCasts_S50000_S50000x1 := by
  show StableHlo.after hostOps0 (W0 m ρ c) (Proc.devRef .tc main_v6) = _
  after_results_simp <;> rfl

set_option maxHeartbeats 2000000 in
theorem entry0_weights (c : Dev nD) :
    V1 m ρ c main_v20 = concatenate S128x64 0 [⟨S64x64, (m ((c : Thread nD τ).loc main_arg4))⟩, ⟨S64x64, (m ((c : Thread nD τ).loc main_arg5))⟩]
      concatenates_S64x64_S64x64_S128x64_d0 := by
  show StableHlo.after hostOps0 (W0 m ρ c) (Proc.devRef .tc main_v20) = _
  after_results <;> rfl

set_option maxHeartbeats 2000000 in
theorem entry0_bias (c : Dev nD) : V1 m ρ c main_v21 = shapeCast S1x64 (m ((c : Thread nD τ).loc main_arg6)) shapeCasts_S64_S1x64 := by
  show StableHlo.after hostOps0 (W0 m ρ c) (Proc.devRef .tc main_v21) = _
  after_results_simp <;> rfl

/-! ## The arguments and the degree column at the first region's exit -/

set_option maxHeartbeats 2000000 in
theorem exit0_arg1 (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results <;> rfl)

set_option maxHeartbeats 2000000 in
theorem exit0_arg2 (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results <;> rfl)

set_option maxHeartbeats 2000000 in
theorem exit0_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results <;> rfl)

set_option maxHeartbeats 2000000 in
theorem exit0_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results <;> rfl)

set_option maxHeartbeats 2000000 in
theorem exit0_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results <;> rfl)

/-- The first region's output array at its exit is what its five write-backs leave. -/
theorem exit0_hidden (c : Dev nD) : W2 m ρ c (Proc.devRef .tc main_v22) = (dat0 (V1 m ρ) c).arrAt 5 cfg0.N :=
  W2_arr m ρ c 5

set_option maxHeartbeats 2000000 in
/-- The degree column is an input of the first region: it leaves it as it found it. -/
theorem exit0_degree (c : Dev nD) : W2 m ρ c (Proc.devRef .tc main_v6) = V1 m ρ c main_v6 :=
  (W2_arr m ρ c 2).trans (((dat0 (V1 m ρ) c).arrAt_in 2 rfl _).trans (A_eq0 (V1 m ρ) c 2))

/-! ## What the second region finds -/

set_option maxHeartbeats 2000000 in
theorem entry1_features (c : Dev nD) : V3 m ρ c main_v22 = (dat0 (V1 m ρ) c).arrAt 5 cfg0.N := by
  show StableHlo.after hostOps1 (W2 m ρ c) (Proc.devRef .tc main_v22) = _
  after_results
  exact exit0_hidden m ρ c

set_option maxHeartbeats 2000000 in
theorem entry1_sums (c : Dev nD) :
    V3 m ρ c main_v32 = plainSum ((dat0 (V1 m ρ) c).arrAt 5 cfg0.N) (m ((c : Thread nD τ).loc main_arg1)) (m ((c : Thread nD τ).loc main_arg2)) := by
  show StableHlo.after hostOps1 (W2 m ρ c) (Proc.devRef .tc main_v32) = _
  after_results
  rw [exit0_arg1 m ρ c, exit0_arg2 m ρ c, exit0_hidden m ρ c]
  rfl

set_option maxHeartbeats 2000000 in
theorem entry1_degree (c : Dev nD) :
    V3 m ρ c main_v6 = shapeCast S50000x1 (degree (m ((c : Thread nD τ).loc main_arg2))) shapeCasts_S50000_S50000x1 := by
  show StableHlo.after hostOps1 (W2 m ρ c) (Proc.devRef .tc main_v6) = _
  after_results
  exact (exit0_degree m ρ c).trans (entry0_degree m ρ c)

set_option maxHeartbeats 2000000 in
theorem entry1_weights (c : Dev nD) :
    V3 m ρ c main_v33 = concatenate S128x32 0 [⟨S64x32, (m ((c : Thread nD τ).loc main_arg7))⟩, ⟨S64x32, (m ((c : Thread nD τ).loc main_arg8))⟩]
      concatenates_S64x32_S64x32_S128x32_d0 := by
  show StableHlo.after hostOps1 (W2 m ρ c) (Proc.devRef .tc main_v33) = _
  after_results
  rw [exit0_arg7 m ρ c, exit0_arg8 m ρ c]

set_option maxHeartbeats 2000000 in
theorem entry1_bias (c : Dev nD) : V3 m ρ c main_v34 = shapeCast S1x32 (m ((c : Thread nD τ).loc main_arg9)) shapeCasts_S32_S1x32 := by
  show StableHlo.after hostOps1 (W2 m ρ c) (Proc.devRef .tc main_v34) = _
  after_results
  rw [exit0_arg9 m ρ c]
  rfl

end Cert.KernelIdeal.Hand

end
-- ==== Proof.KernelValue.lean ====
/-
  The program's result as two layers.

  The first region leaves the rectified first layer of the features, of their weighted message sums and of the degree
  vector: the stacked arrangement on the degree set up as a column, the weight matrices stacked and the bias set up as
  a row is the layer. The second region leaves the second layer of that array, of its plain message sums and of the
  same degree vector. Every weakly fair execution therefore ends with the result buffer at that two-layer function of
  the ten arguments, and the arguments as launched.
-/
import proofs.«118665_j73641509257822_2_alg».proof.Proof.RunOut
import proofs.«118665_j73641509257822_2_alg».proof.Proof.Region0
import proofs.«118665_j73641509257822_2_alg».proof.Proof.Region1
import proofs.«118665_j73641509257822_2_alg».proof.Proof.KernelArrays
import proofs.«118665_j73641509257822_2_alg».proof.Proof.LibSageLayer

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Sage

/-- The hidden features: the rectified first layer. -/
def hidden (a0 : FVec Ideal S50000x64 .f32) (a1 a2 : IVec S800000 32) (a3 : FVec Ideal S800000 .f32)
    (a4 a5 : FVec Ideal S64x64 .f32) (a6 : FVec Ideal S64 .f32) : FVec Ideal S50000x64 .f32 :=
  relu (layer a0 (weightedSum a0 a1 a2 a3) (degree a2) a4 a5 a6)

/-- The result: the second layer of the hidden features. -/
def result (a0 : FVec Ideal S50000x64 .f32) (a1 a2 : IVec S800000 32) (a3 : FVec Ideal S800000 .f32)
    (a4 a5 : FVec Ideal S64x64 .f32) (a6 : FVec Ideal S64 .f32) (a7 a8 : FVec Ideal S64x32 .f32)
    (a9 : FVec Ideal S32 .f32) : FVec Ideal S50000x32 .f32 :=
  layer (hidden a0 a1 a2 a3 a4 a5 a6) (plainSum (hidden a0 a1 a2 a3 a4 a5 a6) a1 a2) (degree a2) a7 a8 a9

variable (m : (ℓ : Loc nD τ sig) → Buf (Elt Ideal) ℓ) (ρ : Dev nD → PrngReg)

/-- The first region's output array after its write-backs is the hidden features. -/
theorem hidden_eq (c : Dev nD) : (dat0 (V1 m ρ) c).arrAt 5 cfg0.N
    = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (final0 (V1 m ρ) c).trans (by
    rw [entry0_features m ρ c, entry0_sums m ρ c, entry0_degree m ρ c, entry0_weights m ρ c, entry0_bias m ρ c]
    unfold out0 hidden
    exact congrArg relu (stacked_eq_layer rfl _ _ _ _ _ _ _ _ _))

/-- The result buffer at the last boundary is the result. -/
theorem result_eq (c : Dev nD) : W4 m ρ c (Proc.devRef .tc main_v35)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 5).trans ((final1 (V3 m ρ) c).trans (by
    rw [entry1_features m ρ c, entry1_sums m ρ c, entry1_degree m ρ c, entry1_weights m ρ c, entry1_bias m ρ c,
      hidden_eq m ρ c]
    unfold out1 result
    exact stacked_eq_layer rfl _ _ _ _ _ _ _ _ _))

/-- THE RUN, READ: every weakly fair execution ends with the result buffer at the two-layer function of the arguments
    and the arguments as launched. -/
theorem run : θ_run defs (onTc (τ := τ) (main (F := Ideal))) ⟨m, fun _ => 0, ρ⟩ (fun r => ∀ c : Dev nD,
      r.2.mem ((c.tc : Thread nD τ).loc main_v35) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_out m ρ)

end Cert.KernelIdeal.Hand

end
-- ==== Proof.ReferenceValue.lean ====
/-
  The reference's result as two layers.

  The reference computes each layer in the two-product arrangement on the whole arrays: X · Ws + (S / d) · Wn + b, the
  degree vector repeated along each row and the bias down each column, the first layer followed by the rectifier (a
  maximum with the zero constant repeated over the array). Read entry by entry each is the layer. The message sums and
  the degree vector are computed from the edge lists exactly as spelt below.
-/
import proofs.«118665_j73641509257822_2_alg».proof.Proof.Gen.ReferenceIdeal.Run
import proofs.«118665_j73641509257822_2_alg».proof.Proof.LibSageLayer
import Idealize.ShloMosaic.Lib.IdealHost

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.ValueIdx
open Cert.Sage

/-- The in-degree of every node, floored at one: ones scattered onto the destination nodes, then the maximum with one. -/
def degree (dst : IVec S800000 32) : FVec Ideal S50000 .f32 :=
  maximumf
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The source indices as a gather takes them: a negative index wrapped round by the node count, as a column. -/
def wrapped (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The sum, over the edges into each node, of the source node's row times the edge's weight. -/
def weightedSum (x : FVec Ideal S50000x64 .f32) (src dst : IVec S800000 32) (w : FVec Ideal S800000 .f32) :
    FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (Host.gather gather_S50000x64_S800000x1_S800000x64_1_0_n_n_0_1_164 x (wrapped src))
      (broadcastInDim S800000x64 ![0, 1] bcast_S800000x1_S800000x64_0_1
        (broadcastInDim S800000x1 ![0] bcast_S800000_S800000x1_0 w)))

/-- The sum, over the edges into each node, of the source node's row. -/
def plainSum (x : FVec Ideal S50000x64 .f32) (src dst : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x (wrapped src))

/-- The first layer as the reference spells it, the rectifier included. -/
def hostLayer1 (X S : FVec Ideal S50000x64 .f32) (d : FVec Ideal S50000 .f32) (Ws Wn : FVec Ideal S64x64 .f32)
    (b : FVec Ideal S64 .f32) : FVec Ideal S50000x64 .f32 :=
  maximumf
    (addf
      (addf (Host.dotGeneral (F := Ideal) dot_S50000x64_S64x64_S50000x64_1_0_0_1_n_n none X Ws)
        (Host.dotGeneral (F := Ideal) dot_S50000x64_S64x64_S50000x64_1_0_0_1_n_n none
          (Host.divf (F := Ideal) S
            (broadcastInDim S50000x64 ![0, 1] bcast_S50000x1_S50000x64_0_1
              (broadcastInDim S50000x1 ![0] bcast_S50000_S50000x1_0 d))) Wn))
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- The second layer as the reference spells it. -/
def hostLayer2 (X S : FVec Ideal S50000x64 .f32) (d : FVec Ideal S50000 .f32) (Ws Wn : FVec Ideal S64x32 .f32)
    (b : FVec Ideal S32 .f32) : FVec Ideal S50000x32 .f32 :=
  addf
      (addf (Host.dotGeneral (F := Ideal) dot_S50000x64_S64x32_S50000x32_1_0_0_1_n_n none X Ws)
        (Host.dotGeneral (F := Ideal) dot_S50000x64_S64x32_S50000x32_1_0_0_1_n_n none
          (Host.divf (F := Ideal) S
            (broadcastInDim S50000x64 ![0, 1] bcast_S50000x1_S50000x64_0_1
              (broadcastInDim S50000x1 ![0] bcast_S50000_S50000x1_0 d))) Wn))
      (broadcastInDim S50000x32 ![0, 1] bcast_S1x32_S50000x32_0_1 (broadcastInDim S1x32 ![1] bcast_S32_S1x32_1 b))

/-- Entry by entry the first is the rectified layer. -/
theorem hostLayer1_eq (X S : FVec Ideal S50000x64 .f32) (d : FVec Ideal S50000 .f32) (Ws Wn : FVec Ideal S64x64 .f32)
    (b : FVec Ideal S64 .f32) : hostLayer1 X S d Ws Wn b = relu (layer X S d Ws Wn b) := by
  funext j
  obtain ⟨P, q, rfl⟩ : ∃ (P : Fin 50000) (q : Fin 64), j = ix2 P q := ⟨j 0, j 1, eq_ix2 j⟩
  unfold hostLayer1 relu
  rw [layer_apply]
  refine (maximumf_apply _ _ _).trans (congrArg₂ max ?_ ?_)
  · exact two_products_apply (N := 50000) (K := 64) (C := 64) dot_S50000x64_S64x64_S50000x64_1_0_0_1_n_n rfl rfl rfl rfl rfl rfl
      bcast_S50000_S50000x1_0 bcast_S50000x1_S50000x64_0_1 bcast_S64_S1x64_1 bcast_S1x64_S50000x64_0_1 X S d Ws Wn b P q
  · exact broadcastInDim_scalar_apply _ _ _

/-- And the second is the layer. -/
theorem hostLayer2_eq (X S : FVec Ideal S50000x64 .f32) (d : FVec Ideal S50000 .f32) (Ws Wn : FVec Ideal S64x32 .f32)
    (b : FVec Ideal S32 .f32) : hostLayer2 X S d Ws Wn b = layer X S d Ws Wn b := by
  funext j
  obtain ⟨P, q, rfl⟩ : ∃ (P : Fin 50000) (q : Fin 32), j = ix2 P q := ⟨j 0, j 1, eq_ix2 j⟩
  unfold hostLayer2
  rw [layer_apply]
  exact two_products_apply (N := 50000) (K := 64) (C := 32) dot_S50000x64_S64x32_S50000x32_1_0_0_1_n_n rfl rfl rfl rfl rfl rfl
    bcast_S50000_S50000x1_0 bcast_S50000x1_S50000x64_0_1 bcast_S32_S1x32_1 bcast_S1x32_S50000x32_0_1 X S d Ws Wn b P q

variable (m : (ℓ : Loc nD τ sig) → Buf (Elt Ideal) ℓ)

/-- The run's result term is the second layer of the first layer's output, of its message sums and of the degree vector. -/
theorem result_term (c : Dev nD) :
    Cert.ReferenceIdeal.Value.res_main_v47 (F := Ideal) m c
      = hostLayer2 (hostLayer1 (m ((c : Thread nD τ).loc main_arg0)) (weightedSum (m ((c : Thread nD τ).loc main_arg0)) (m ((c : Thread nD τ).loc main_arg1)) (m ((c : Thread nD τ).loc main_arg2)) (m ((c : Thread nD τ).loc main_arg3)))
          (degree (m ((c : Thread nD τ).loc main_arg2))) (m ((c : Thread nD τ).loc main_arg4)) (m ((c : Thread nD τ).loc main_arg5)) (m ((c : Thread nD τ).loc main_arg6)))
        (plainSum (hostLayer1 (m ((c : Thread nD τ).loc main_arg0)) (weightedSum (m ((c : Thread nD τ).loc main_arg0)) (m ((c : Thread nD τ).loc main_arg1)) (m ((c : Thread nD τ).loc main_arg2)) (m ((c : Thread nD τ).loc main_arg3)))
          (degree (m ((c : Thread nD τ).loc main_arg2))) (m ((c : Thread nD τ).loc main_arg4)) (m ((c : Thread nD τ).loc main_arg5)) (m ((c : Thread nD τ).loc main_arg6))) (m ((c : Thread nD τ).loc main_arg1)) (m ((c : Thread nD τ).loc main_arg2)))
        (degree (m ((c : Thread nD τ).loc main_arg2))) (m ((c : Thread nD τ).loc main_arg7)) (m ((c : Thread nD τ).loc main_arg8)) (m ((c : Thread nD τ).loc main_arg9)) := by
  unfold Cert.ReferenceIdeal.Value.res_main_v47
  rfl

end Cert.ReferenceIdeal.Hand

end
-- ==== Proof.lean ====
/-
  Two mean-aggregation graph-convolution layers: a row-tiled kernel per layer against the plain reference.

  Each layer is   X · Ws + (S / d) · Wn + b,   with S the sum over incoming edges of the source node's features (weighted
  by the edge in the first layer), d the in-degree floored at one, and a rectifier after the first layer. The kernel
  program computes S and d on the host exactly as the reference does, then runs each layer in a region tiled over
  blocks of 10000 rows: features and row-wise quotient laid side by side, one product with the two weight matrices
  stacked, the bias row added. The reference takes the two products apart and adds them. Over the extended reals the
  product over the 128 stacked terms is the sum of the two products over 64 terms (a finite sum splits at any point),
  so entry by entry the two programs compute the same function of the arguments; no finiteness of the inputs is used.
  The second layer reads the first layer's output through the same gather and scatter in both programs, so equal hidden
  features give equal results.

  The three frames are the generated ones (the reference's is its generated run with the result dropped); the ideal
  pass rewrote nothing, so the idealization claim is trivial.
-/
import proofs.«118665_j73641509257822_2_alg».proof.Defs
import proofs.«118665_j73641509257822_2_alg».proof.Proof.Gen.Kernel
import proofs.«118665_j73641509257822_2_alg».proof.Proof.Gen.Kernel.Frame
import proofs.«118665_j73641509257822_2_alg».proof.Proof.Gen.KernelIdeal
import proofs.«118665_j73641509257822_2_alg».proof.Proof.Gen.KernelIdeal.Frame
import proofs.«118665_j73641509257822_2_alg».proof.Proof.Gen.ReferenceIdeal
import proofs.«118665_j73641509257822_2_alg».proof.Proof.Gen.Pre_finite_inputs
import proofs.«118665_j73641509257822_2_alg».proof.Proof.Gen.ReferenceIdeal.Run
import proofs.«118665_j73641509257822_2_alg».proof.Proof.KernelValue
import proofs.«118665_j73641509257822_2_alg».proof.Proof.ReferenceValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The floored in-degree is one function in the two programs. -/
theorem degree_eq (dst : IVec Cert.KernelIdeal.S800000 32) :
    Cert.ReferenceIdeal.Hand.degree dst = Cert.KernelIdeal.Hand.degree dst := rfl

/-- So is the weighted message sum … -/
theorem weightedSum_eq (x : FVec Ideal Cert.KernelIdeal.S50000x64 .f32) (src dst : IVec Cert.KernelIdeal.S800000 32)
    (w : FVec Ideal Cert.KernelIdeal.S800000 .f32) :
    Cert.ReferenceIdeal.Hand.weightedSum x src dst w = Cert.KernelIdeal.Hand.weightedSum x src dst w := rfl

/-- … and the plain one. -/
theorem plainSum_eq (x : FVec Ideal Cert.KernelIdeal.S50000x64 .f32) (src dst : IVec Cert.KernelIdeal.S800000 32) :
    Cert.ReferenceIdeal.Hand.plainSum x src dst = Cert.KernelIdeal.Hand.plainSum x src dst := rfl

/-- Both programs end with the result at the second layer of the rectified first layer of the arguments. -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Hand.result_term, e0, e1, e2, e3, e4, e5, e6, e7, e8, e9,
    Cert.ReferenceIdeal.Hand.hostLayer2_eq, Cert.ReferenceIdeal.Hand.hostLayer1_eq, degree_eq, weightedSum_eq,
    plainSum_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
